-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S64 .f32) (main_arg5 : FVec F S64x40 .f32) (main_arg6 : FVec F S40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg5
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S128x128 .f32) (main_arg3 : FVec F S128x64 .f32) (main_arg4 : FVec F S64 .f32) (main_arg5 : FVec F S64x40 .f32) (main_arg6 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x64 : Shape := ⟨2, ![1, 64]⟩
abbrev S1x40 : Shape := ⟨2, ![1, 40]⟩
abbrev S10000x64 : Shape := ⟨2, ![10000, 64]⟩
abbrev S10000x40 : Shape := ⟨2, ![10000, 40]⟩
abbrev S400x10000 : Shape := ⟨2, ![400, 10000]⟩
abbrev S400x40 : Shape := ⟨2, ![400, 40]⟩
abbrev S400x64 : Shape := ⟨2, ![400, 64]⟩
abbrev S400 : Shape := ⟨1, ![400]⟩
abbrev S400x1 : Shape := ⟨2, ![400, 1]⟩

abbrev nBuf : Space → Nat
  | .hbm => 12
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x64, .f32⟩
  | .hbm, ⟨8, _⟩ => ⟨S1x40, .f32⟩
  | .hbm, ⟨9, _⟩ => ⟨S10000x64, .f32⟩
  | .hbm, ⟨10, _⟩ => ⟨S10000x40, .f32⟩
  | .hbm, ⟨11, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S128x64, .f32⟩
  | .local _ .vmem, ⟨3, _⟩ => ⟨S10000x64, .f32⟩
  | .local _ .vmem, ⟨4, _⟩ => ⟨S400x10000, .f32⟩
  | .local _ .vmem, ⟨5, _⟩ => ⟨S400x10000, .f32⟩
  | .local _ .vmem, ⟨6, _⟩ => ⟨S10000x64, .f32⟩
  | .local _ .vmem, ⟨7, _⟩ => ⟨S1x64, .f32⟩
  | .local _ .vmem, ⟨8, _⟩ => ⟨S64x40, .f32⟩
  | .local _ .vmem, ⟨9, _⟩ => ⟨S400x40, .f32⟩
  | .local _ .vmem, ⟨10, _⟩ => ⟨S400x40, .f32⟩
  | .local _ .vmem, ⟨11, _⟩ => ⟨S400x10000, .f32⟩
  | .local _ .vmem, ⟨12, _⟩ => ⟨S400x10000, .f32⟩
  | .local _ .vmem, ⟨13, _⟩ => ⟨S10000x40, .f32⟩
  | .local _ .vmem, ⟨14, _⟩ => ⟨S1x40, .f32⟩
  | .local _ .vmem, ⟨15, _⟩ => ⟨S400x40, .f32⟩
  | .local _ .vmem, ⟨16, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  shapeCasts_S40_S1x40 : S40.ShapeCasts S1x40
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S400x10000_S400x10000_0_0 : ∀ a, (![0, 0] : Fin 2 → Nat) a + S400x10000.size a ≤ S400x10000.size a
  h_S400x10000 : 0 < S400x10000.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x40_S64x40_0_0 : ∀ a, (![0, 0] : Fin 2 → Nat) a + S64x40.size a ≤ S64x40.size a
  h_S64x40 : 0 < S64x40.numel
  inb_S400x40_S400x40_0_0 : ∀ a, (![0, 0] : Fin 2 → Nat) a + S400x40.size a ≤ S400x40.size a
  h_S400x40 : 0 < S400x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x40_S400x40_1_0_0_1_n_n_wf : DotDims.WF S400x64 S64x40 S400x40 [1] [0] [0] [1] [] []
  dot_S400x10000_S10000x40_S400x40_1_0_0_1_n_n_wf : DotDims.WF S400x10000 S10000x40 S400x40 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x40.size a ≤ S10000x40.size a
  hwx1_4 : ∀ i : grid1.Coords, EltTy.bits .f32 = 32 ∨ (Rect.block (s := S10000x40) S400x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S10000x40.size a
  hwx2_1 : ∀ i : grid2.Coords, EltTy.bits .f32 = 32 ∨ (Rect.block (s := S10000x40) S10000x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x40.size a ≤ S10000x40.size a
  hwx2_3 : ∀ i : grid2.Coords, EltTy.bits .f32 = 32 ∨ (Rect.block (s := S10000x40) S400x40.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x40_S400x40_1_0_0_1_n_n : DotDims S400x64 S64x40 S400x40 where
  lhsContracting := [1]
  rhsContracting := [0]
  lhsNonContracting := [0]
  rhsNonContracting := [1]
  lhsBatch := []
  rhsBatch := []
  wf := dot_S400x64_S64x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_v2) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S400x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩
abbrev S10000x64 : Shape := ⟨2, ![10000, 64]⟩
abbrev S1x64 : Shape := ⟨2, ![1, 64]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x64, .f32⟩
  | .hbm, ⟨12, _⟩ => ⟨S10000x64, .f32⟩
  | .hbm, ⟨13, _⟩ => ⟨S1x64, .f32⟩
  | .hbm, ⟨14, _⟩ => ⟨S10000x64, .f32⟩
  | .hbm, ⟨15, _⟩ => ⟨S10000x64, .f32⟩
  | .hbm, ⟨16, _⟩ => ⟨S10000x40, .f32⟩
  | .hbm, ⟨17, _⟩ => ⟨S10000x40, .f32⟩
  | .hbm, ⟨18, _⟩ => ⟨S1x40, .f32⟩
  | .hbm, ⟨19, _⟩ => ⟨S10000x40, .f32⟩
  | .hbm, ⟨20, _⟩ => ⟨S10000x40, .f32⟩
  | .hbm, ⟨21, _⟩ => ⟨S_, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000x40, .f32⟩
  | .hbm, ⟨28, _⟩ => ⟨S10000x40, .f32⟩
  | .hbm, ⟨29, _⟩ => ⟨S10000x40, .f32⟩
  | .hbm, ⟨30, _⟩ => ⟨S_, .f32⟩
  | .hbm, ⟨31, _⟩ => ⟨S10000, .f32⟩
  | .hbm, ⟨32, _⟩ => ⟨S10000x1, .f32⟩
  | .hbm, ⟨33, _⟩ => ⟨S10000x1, .f32⟩
  | .hbm, ⟨34, _⟩ => ⟨S10000x40, .f32⟩
  | .hbm, ⟨35, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_call1_cst_0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_cst_1 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_v12 : Ref sig .tc := ⟨.hbm, 35, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x40_S10000x40_1_0_0_1_n_n_wf : DotDims.WF S10000x64 S64x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.KRun.lean ====
/-
  The idealized kernel's run with its result named: every weakly fair execution of the three regions in order ends
  with the result array at what the third region's write-backs leave (the last boundary's contents, read at the
  result's buffer) and with the seven argument arrays as launched.
-/
import proofs.«177056_g82514911691356_cont_sun_c4_703_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three regions: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.NamedRun

end
-- ==== Proof.Spec.lean ====
/-
  The two-layer graph convolution with a row-wise log-softmax, as functions of whole arrays on the extended reals.

  For a feature matrix `x`, an adjacency matrix `adj`, weights `W1`, `W2`, `W3` and biases `b1`, `b2`:
    h2     = relu (x · W1) · W2
    g      = (adj · h2 + b1) · W3                  (the bias added to every row)
    logits = adj · g + b2
  and, for each row `p` of the logits, with `m p` the row's maximum and
  `lse p = log (∑ k, exp (logits p k − m p))`, the result is written in one of two ways:
    `lsmShiftLast`  : logits p j − (lse p + m p)
    `lsmShiftFirst` : (logits p j − m p) − lse p .
  A matrix product is the finite sum over the contracted coordinate; nothing is rounded and no order of
  summation is fixed.
-/
import Idealize.ShloMosaic.Lib.ValueIdx
import Idealize.ShloMosaic.PureOps.Ideal

noncomputable section

namespace Cert.Gcn

open Idealize.ShloMosaic Idealize.ShloMosaic.ValueIdx

/-- A matrix of extended reals with `N` rows and `H` columns. -/
abbrev Mat (N H : ℕ) := (⟨2, ![N, H]⟩ : Shape).Idx → EReal
/-- A vector of extended reals with `N` entries. -/
abbrev Vect (N : ℕ) := (⟨1, ![N]⟩ : Shape).Idx → EReal

variable {N K H : ℕ}

/-- The matrix product: entry `(p, j)` is `∑ k, l (p, k) * r (k, j)`. -/
def mm (l : Mat N K) (r : Mat K H) : Mat N H := fun i => ∑ k : Fin K, l (ix2 (i 0) k) * r (ix2 k (i 1))

theorem mm_apply (l : Mat N K) (r : Mat K H) (p : Fin N) (j : Fin H) :
    mm l r (ix2 p j) = ∑ k : Fin K, l (ix2 p k) * r (ix2 k j) := rfl

/-- The positive part, entry by entry; the zero is kept as the float word both programs write. -/
def relu (a : Mat N H) : Mat N H := fun i => max (a i) (Ideal.ofBits .f32 0x00000000#32)

theorem relu_apply (a : Mat N H) (p : Fin N) (j : Fin H) :
    relu a (ix2 p j) = max (a (ix2 p j)) (Ideal.ofBits .f32 0x00000000#32) := rfl

/-- A vector added to every row of a matrix. -/
def addRow (a : Mat N H) (b : Vect H) : Mat N H := fun i => a i + b (ix1 (i 1))

theorem addRow_apply (a : Mat N H) (b : Vect H) (p : Fin N) (j : Fin H) :
    addRow a b (ix2 p j) = a (ix2 p j) + b (ix1 j) := rfl

/-- The feature transform `relu (x · W1) · W2`. -/
def feat {A B C : ℕ} (x : Mat N A) (W1 : Mat A B) (W2 : Mat B C) : Mat N C := mm (relu (mm x W1)) W2

/-- The first aggregation `(adj · h2 + b1) · W3`. -/
def agg {A B : ℕ} (adj : Mat N K) (h2 : Mat K A) (b1 : Vect A) (W3 : Mat A B) : Mat N B := mm (addRow (mm adj h2) b1) W3

/-- The logits `adj · g + b2`. -/
def logits (adj : Mat N K) (g : Mat K H) (b2 : Vect H) : Mat N H := addRow (mm adj g) b2

/-- The maximum of row `p`, folded from the float word for −∞ (which both programs write). -/
def rowMax (L : Mat N H) (p : Fin N) : EReal :=
  (Finset.univ : Finset (Fin H)).fold max (Ideal.ofBits .f32 0xFF800000#32) (fun k => L (ix2 p k))

/-- `log (∑ k, exp (L p k − rowMax L p))`. -/
def rowLse (L : Mat N H) (p : Fin N) : EReal := Ideal.log (∑ k : Fin H, Ideal.exp (L (ix2 p k) - rowMax L p))

/-- The log-softmax of each row, the shift by the maximum undone last: `L p j − (lse p + m p)`. -/
def lsmShiftLast (L : Mat N H) : Mat N H := fun i => L i - (rowLse L (i 0) + rowMax L (i 0))

/-- The log-softmax of each row, the shift by the maximum made first: `(L p j − m p) − lse p`. -/
def lsmShiftFirst (L : Mat N H) : Mat N H := fun i => (L i - rowMax L (i 0)) - rowLse L (i 0)

theorem lsmShiftLast_apply (L : Mat N H) (p : Fin N) (j : Fin H) :
    lsmShiftLast L (ix2 p j) = L (ix2 p j) - (rowLse L p + rowMax L p) := rfl

theorem lsmShiftFirst_apply (L : Mat N H) (p : Fin N) (j : Fin H) :
    lsmShiftFirst L (ix2 p j) = (L (ix2 p j) - rowMax L p) - rowLse L p := rfl

/-- The logits of the whole network from its seven inputs. -/
def netLogits (x : Mat 10000 128) (adj : Mat 10000 10000) (W1 : Mat 128 128) (W2 : Mat 128 64) (b1 : Vect 64)
    (W3 : Mat 64 40) (b2 : Vect 40) : Mat 10000 40 :=
  logits adj (agg adj (feat x W1 W2) b1 W3) b2

/-- Every entry of a family is a real number. -/
def AllReal {ι : Type} (a : ι → EReal) : Prop := ∀ i, ∃ r : ℝ, a i = (r : EReal)

end Cert.Gcn

end
-- ==== Proof.LibDotRows.lean ====
/-
  A plain two-dimensional matrix product read at an index.

  For dimension numbers that contract the left operand's axis 1 with the right operand's axis 0 and have no batch
  axis — rows × contraction times contraction × columns — the contraction sum at the output index `(p, j)` is
  `∑ k, l (p, k) * r (k, j)`: the one-axis contraction index is its coordinate (`contrEquiv1`), the contracted
  coordinate of each operand index is that coordinate, and the other coordinate is the output's.
  `matmul_zero_rows` is this for a kernel's product into a zero accumulator, `dotGeneral_rows` for the host's
  `dot_general`: at the ideal instance both are that sum.
-/
import Idealize.ShloMosaic.Lib.ValueIdx
import Idealize.ShloMosaic.PureOps.Ideal.Laws

noncomputable section

namespace Cert.LibDotRows

open Idealize.ShloMosaic Idealize.ShloMosaic.ValueIdx

/-- The contraction sum of a plain product at `(p, j)` is `∑ k, l (p, k) * r (k, j)`. The hypotheses are the
    dimension numbers' facts: one contracted axis of extent `K` (`hr`, `hs`), which axes are contracted (`hlc`,
    `hrc`), and that the operands' remaining coordinates are the output's (`h00`, `h11`). -/
theorem sum_contr_rows {N K H : ℕ} (d : DotDims ⟨2, ![N, K]⟩ ⟨2, ![K, H]⟩ ⟨2, ![N, H]⟩)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : (⟨2, ![N, K]⟩ : Shape).Idx → EReal) (r : (⟨2, ![K, H]⟩ : Shape).Idx → EReal) (p : Fin N) (j : Fin H) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact h00 _ _
    | ⟨1, _⟩ => exact (d.lhsIdx_val_of_single hlc _ _).trans hk)
  have er : d.rhsIdx (ix2 p j) ((contrEquiv1 d K hr hs).symm k) = ix2 k j := funext fun a => Fin.ext (by
    match a with
    | ⟨0, _⟩ => exact (d.rhsIdx_val_of_single hrc _ _).trans hk
    | ⟨1, _⟩ => exact h11 _ _)
  rw [el, er]

/-- A kernel's plain product into the zero accumulator, at `(p, j)`, at the ideal instance. -/
theorem matmul_zero_rows {N K H : ℕ} {φ₁ φ₂ : FTy} (d : DotDims ⟨2, ![N, K]⟩ ⟨2, ![K, H]⟩ ⟨2, ![N, H]⟩)
    (prec : Option ContractPrecision)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : FVec Ideal ⟨2, ![N, K]⟩ φ₁) (r : FVec Ideal ⟨2, ![K, H]⟩ φ₂) (p : Fin N) (j : Fin H) :
    FloatOps.matmul d prec l r (constant ⟨2, ![N, H]⟩ .f32 0x00000000#32) (ix2 p j) = ∑ k : Fin K, l (ix2 p k) * r (ix2 k j) :=
  (Ideal.matmul_constant_zero_apply d prec l r (ix2 p j)).trans (sum_contr_rows d hr hs hlc hrc h00 h11 l r p j)

/-- The host's plain `dot_general` at `(p, j)`, at the ideal instance. -/
theorem dotGeneral_rows {N K H : ℕ} {φ₁ φ₂ : FTy} (d : DotDims ⟨2, ![N, K]⟩ ⟨2, ![K, H]⟩ ⟨2, ![N, H]⟩)
    (prec : Option ContractPrecision) (sched : HostSchedule)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : FVec Ideal ⟨2, ![N, K]⟩ φ₁) (r : FVec Ideal ⟨2, ![K, H]⟩ φ₂) (p : Fin N) (j : Fin H) :
    FloatOps.dotGeneral d prec sched l r (ix2 p j) = ∑ k : Fin K, l (ix2 p k) * r (ix2 k j) :=
  (Ideal.dotGeneral_apply d prec sched l r (ix2 p j)).trans (sum_contr_rows d hr hs hlc hrc h00 h11 l r p j)

end Cert.LibDotRows

end
-- ==== Proof.LibKeepdims.lean ====
/-
  Keepdims forms read at an index, for any element type and any extents: a vector cast to a column, a column
  broadcast along rows, the host's dimension-numbered broadcasts between a scalar, a vector, a row, a column and
  a matrix, and a sum along the rows of a matrix (the kernel's lane reduction and the host's reduce) as a finite
  sum over the row's entries.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast by dimension numbers to any shape reads the scalar everywhere. -/
theorem bcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` placed on axis 0 of the column `[a, 1]`. -/
theorem bcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u : (⟨2, ![a, 1]⟩ : Shape).Idx) (dims 0)).val
    rw [hd]
    split
    · have := p.isLt; omega
    · rfl

/-- A column `[a, 1]` broadcast by dimension numbers `[0, 1]` to `[a, b]`. -/
theorem bcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-- A vector `[b]` placed on axis 1 of the row `[1, b]`. -/
theorem bcastInDim_b_1b_apply {b : ℕ} (dims : Fin 1 → Fin 2) (hd : dims 0 = 1)
    (h : (⟨1, ![b]⟩ : Shape).BroadcastsInDim ⟨2, ![1, b]⟩ dims) (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` broadcast by dimension numbers `[0, 1]` to `[a, b]`. -/
theorem bcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [hd1]
    split
    · have := c.isLt; omega
    · rfl

/-- The lane reduction along the rows of a matrix, at the ideal values, is the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (funext fun c => Fin.ext (by
    match c with
    | ⟨0, _⟩ => rfl
    | ⟨1, _⟩ => rfl))

/-- The host's sum along the rows of a matrix, at the ideal values, is the initial value plus the row's entries. -/
theorem hostRowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  unfold Host.reduceAdd
  rw [Ideal.hostReduceAdd_def]
  refine (Ideal.hostReduceAdd_single h' h x _ (ix1 p)).trans ?_
  have e : init (Shape.Idx.first hu) = init ix0 := congrArg init (funext fun c => c.elim0)
  rw [e]
  refine congrArg (init ix0 + ·) ?_
  exact Finset.sum_congr rfl fun k _ => congrArg x (funext fun c => Fin.ext (by
    match c with
    | ⟨0, _⟩ => rfl
    | ⟨1, _⟩ => rfl))

end Cert.Keepdims

end
-- ==== Proof.KPay.lean ====
/-
  What each of the three kernel bodies stores, as a function of the blocks it loads, at the ideal instance:
  the feature body stores `relu (x · W1) · W2`; the first aggregation body stores `(a · h2 + b) · W3` for its band
  `a` of rows of the adjacency matrix, the bias being the one row of a `[1, 64]` block; the second aggregation body
  stores the row-wise log-softmax (the shift by the row maximum undone last) of `a · g + b`.
  A product into a zero accumulator is the finite sum over the contracted coordinate; the shape casts of a shape to
  itself are the identity; a `[1, b]` row broadcast to `[a, b]` reads its one row; the lane reductions along a row
  are the fold of `max` and the finite sum over the row; a `[a]` vector cast to a column `[a, 1]` and broadcast to
  `[a, b]` reads the vector at the row.
-/
import proofs.«177056_g82514911691356_cont_sun_c4_703_2_alg».proof.Proof.Gen.KernelIdeal.Skeleton
import proofs.«177056_g82514911691356_cont_sun_c4_703_2_alg».proof.Proof.Spec
import proofs.«177056_g82514911691356_cont_sun_c4_703_2_alg».proof.Proof.LibDotRows
import proofs.«177056_g82514911691356_cont_sun_c4_703_2_alg».proof.Proof.LibKeepdims
import Idealize.ShloMosaic.Lib.ValueLayout

noncomputable section

namespace Cert.KernelIdeal.Pay

open Cert.KernelIdeal Cert.KernelIdeal.Gen Idealize.ShloMosaic Idealize.ShloMosaic.ValueIdx Cert.LibDotRows Cert.Keepdims

/-! ## The coordinates a product's operand indices keep from the output index -/

theorem l0_xw1 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem r1_xw1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem l0_hw2 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem r1_hw2 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem l0_ah (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem r1_ah (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

theorem l0_tw3 (i : S400x40.Idx) (q : dot_S400x64_S64x40_S400x40_1_0_0_1_n_n.contr.Idx) : (dot_S400x64_S64x40_S400x40_1_0_0_1_n_n.lhsIdx i q 0).val = (i 0).val := by
  unfold DotDims.lhsIdx
  rw [dif_neg (show ¬(0 : Fin S400x64.rank) ∈ dot_S400x64_S64x40_S400x40_1_0_0_1_n_n.lhsBatch by decide), dif_pos (show (0 : Fin S400x64.rank) ∈ dot_S400x64_S64x40_S400x40_1_0_0_1_n_n.lhsNonContracting by decide)]
  rfl
theorem r1_tw3 (i : S400x40.Idx) (q : dot_S400x64_S64x40_S400x40_1_0_0_1_n_n.contr.Idx) : (dot_S400x64_S64x40_S400x40_1_0_0_1_n_n.rhsIdx i q 1).val = (i 1).val := by
  unfold DotDims.rhsIdx
  rw [dif_neg (show ¬(1 : Fin S64x40.rank) ∈ dot_S400x64_S64x40_S400x40_1_0_0_1_n_n.rhsBatch by decide), dif_pos (show (1 : Fin S64x40.rank) ∈ dot_S400x64_S64x40_S400x40_1_0_0_1_n_n.rhsNonContracting by decide)]
  rfl

theorem l0_ag (i : S400x40.Idx) (q : dot_S400x10000_S10000x40_S400x40_1_0_0_1_n_n.contr.Idx) : (dot_S400x10000_S10000x40_S400x40_1_0_0_1_n_n.lhsIdx i q 0).val = (i 0).val := by
  unfold DotDims.lhsIdx
  rw [dif_neg (show ¬(0 : Fin S400x10000.rank) ∈ dot_S400x10000_S10000x40_S400x40_1_0_0_1_n_n.lhsBatch by decide), dif_pos (show (0 : Fin S400x10000.rank) ∈ dot_S400x10000_S10000x40_S400x40_1_0_0_1_n_n.lhsNonContracting by decide)]
  rfl
theorem r1_ag (i : S400x40.Idx) (q : dot_S400x10000_S10000x40_S400x40_1_0_0_1_n_n.contr.Idx) : (dot_S400x10000_S10000x40_S400x40_1_0_0_1_n_n.rhsIdx i q 1).val = (i 1).val := by
  unfold DotDims.rhsIdx
  rw [dif_neg (show ¬(1 : Fin S10000x40.rank) ∈ dot_S400x10000_S10000x40_S400x40_1_0_0_1_n_n.rhsBatch by decide), dif_pos (show (1 : Fin S10000x40.rank) ∈ dot_S400x10000_S10000x40_S400x40_1_0_0_1_n_n.rhsNonContracting by decide)]
  rfl

/-- The one row of a `[1, n]` block as a vector. -/
def rowVec {n : ℕ} (b : (⟨2, ![1, n]⟩ : Shape).Idx → EReal) : Cert.Gcn.Vect n := fun i => b (ix2 (0 : Fin 1) (i 0))

/-! ## The feature body -/

theorem pay0_eq (x : FVec Ideal S10000x128 .f32) (w1 : FVec Ideal S128x128 .f32) (w2 : FVec Ideal S128x64 .f32) :
    k0_pay1 (F := Ideal) x w1 w2 = Cert.Gcn.feat x w1 w2 := by
  funext i
  obtain ⟨p, j, rfl⟩ : ∃ (p : Fin 10000) (j : Fin 64), i = ix2 p j := ⟨i 0, i 1, eq_ix2 i⟩
  unfold k0_pay1
  refine (matmul_zero_rows dot_S10000x128_S128x64_S10000x64_1_0_0_1_n_n none rfl rfl rfl rfl l0_hw2 r1_hw2 _ w2 p j).trans ?_
  show _ = ∑ k : Fin 128, max (∑ l : Fin 128, x (ix2 p l) * w1 (ix2 l k)) (Ideal.ofBits .f32 0x00000000#32) * w2 (ix2 k j)
  refine Finset.sum_congr rfl fun k _ => congrArg (· * w2 (ix2 k j)) ?_
  refine congrArg (max · (Ideal.ofBits .f32 0x00000000#32)) ?_
  exact matmul_zero_rows dot_S10000x128_S128x128_S10000x128_1_0_0_1_n_n none rfl rfl rfl rfl l0_xw1 r1_xw1 x w1 p k

/-! ## The first aggregation body -/

theorem pay1_eq (a : FVec Ideal S400x10000 .f32) (h2 : FVec Ideal S10000x64 .f32) (b : FVec Ideal S1x64 .f32)
    (w3 : FVec Ideal S64x40 .f32) : k1_pay1 (F := Ideal) a h2 b w3 = Cert.Gcn.agg a h2 (rowVec b) w3 := by
  funext i
  obtain ⟨y, j, rfl⟩ : ∃ (y : Fin 400) (j : Fin 40), i = ix2 y j := ⟨i 0, i 1, eq_ix2 i⟩
  unfold k1_pay1
  refine (matmul_zero_rows dot_S400x64_S64x40_S400x40_1_0_0_1_n_n none rfl rfl rfl rfl l0_tw3 r1_tw3 _ w3 y j).trans ?_
  show _ = ∑ k : Fin 64, ((∑ l : Fin 10000, a (ix2 y l) * h2 (ix2 l k)) + b (ix2 (0 : Fin 1) k)) * w3 (ix2 k j)
  refine Finset.sum_congr rfl fun k _ => congrArg (· * w3 (ix2 k j)) ?_
  refine congrArg₂ (· + ·) ?_ ?_
  · refine (matmul_zero_rows dot_S400x10000_S10000x64_S400x64_1_0_0_1_n_n none rfl rfl rfl rfl l0_ah r1_ah a _ y k).trans ?_
    rw [shapeCast_self]
  · refine (broadcastTo_1b_ab_apply _ _ y k).trans ?_
    rw [shapeCast_self]

/-! ## The second aggregation body -/

/-- The maximum along a row, at the ideal values, is the fold of `max` over the row's entries. -/
theorem rowMax_apply (L : FVec Ideal S400x40 .f32) (hφ : FKind.Formats .f32)
    (hacc : (0xFF800000#32 : BitVec 32) = FKind.maximumf.neutral .f32 hφ) (y : Fin 400) :
    multiReduction .maximumf [1] S400 L 0xFF800000#32 reduces_S400x40_S400 hφ hacc (ix1 y) = Cert.Gcn.rowMax L y := by
  refine (Ideal.multiReduction_maximumf_single L 0xFF800000#32 reduces_S400x40_S400 hφ hacc (ix1 y)).trans ?_
  unfold Cert.Gcn.rowMax
  exact congrArg (fun f => (Finset.univ : Finset (Fin 40)).fold max (Ideal.ofBits .f32 0xFF800000#32) f)
    (funext fun k => congrArg L (funext fun c => Fin.ext (by
      match c with
      | ⟨0, _⟩ => rfl
      | ⟨1, _⟩ => rfl)))

/-- The body's operations after the logits: the row maximum, the shifted exponentials' sum, its logarithm plus the
    maximum, subtracted from the logits. -/
def lsmBody (L : FVec Ideal S400x40 .f32) : FVec Ideal S400x40 .f32 :=
  subf L (broadcastTo S400x40
    (addf
      (log (shapeCast S400x1
        (multiReduction .add [1] S400
          (exp (subf L (broadcastTo S400x40
            (shapeCast S400x1 (multiReduction .maximumf [1] S400 L 0xFF800000#32 reduces_S400x40_S400 (.inl rfl) rfl) shapeCasts_S400_S400x1)
            broadcasts_S400x1_S400x40)))
          0x00000000#32 reduces_S400x40_S400 (.inl rfl) rfl)
        shapeCasts_S400_S400x1))
      (shapeCast S400x1 (multiReduction .maximumf [1] S400 L 0xFF800000#32 reduces_S400x40_S400 (.inl rfl) rfl) shapeCasts_S400_S400x1))
    broadcasts_S400x1_S400x40)

theorem lsmBody_eq (L : FVec Ideal S400x40 .f32) : lsmBody L = Cert.Gcn.lsmShiftLast L := by
  funext i
  obtain ⟨y, j, rfl⟩ : ∃ (y : Fin 400) (j : Fin 40), i = ix2 y j := ⟨i 0, i 1, eq_ix2 i⟩
  unfold lsmBody
  rw [Cert.Gcn.lsmShiftLast_apply]
  refine congrArg (L (ix2 y j) - ·) ?_
  refine (broadcastTo_a1_ab_apply _ _ y j).trans ?_
  refine congrArg₂ (· + ·) ?_ ?_
  · unfold Cert.Gcn.rowLse
    refine congrArg Ideal.log ?_
    refine (shapeCast_a_a1_apply _ _ y 0).trans ?_
    refine (rowSum_apply _ _ _ _ y).trans ?_
    refine Finset.sum_congr rfl fun k _ => ?_
    refine congrArg (fun z => Ideal.exp (L (ix2 y k) - z)) ?_
    refine (broadcastTo_a1_ab_apply _ _ y k).trans ?_
    refine (shapeCast_a_a1_apply _ _ y 0).trans ?_
    exact rowMax_apply L _ _ y
  · refine (shapeCast_a_a1_apply _ _ y 0).trans ?_
    exact rowMax_apply L _ _ y

/-- The logits the body forms from its blocks. -/
theorem logits_eq (a : FVec Ideal S400x10000 .f32) (g : FVec Ideal S10000x40 .f32) (b : FVec Ideal S1x40 .f32) :
    addf (matmul dot_S400x10000_S10000x40_S400x40_1_0_0_1_n_n none a (shapeCast S10000x40 g shapeCasts_S10000x40_S10000x40)
        (constant S400x40 .f32 0x00000000#32))
      (broadcastTo S400x40 (shapeCast S1x40 b shapeCasts_S1x40_S1x40) broadcasts_S1x40_S400x40)
      = Cert.Gcn.logits a g (rowVec b) := by
  funext i
  obtain ⟨y, j, rfl⟩ : ∃ (y : Fin 400) (j : Fin 40), i = ix2 y j := ⟨i 0, i 1, eq_ix2 i⟩
  show _ = (∑ l : Fin 10000, a (ix2 y l) * g (ix2 l j)) + b (ix2 (0 : Fin 1) j)
  refine congrArg₂ (· + ·) ?_ ?_
  · refine (matmul_zero_rows dot_S400x10000_S10000x40_S400x40_1_0_0_1_n_n none rfl rfl rfl rfl l0_ag r1_ag a _ y j).trans ?_
    rw [shapeCast_self]
  · refine (broadcastTo_1b_ab_apply _ _ y j).trans ?_
    rw [shapeCast_self]

theorem pay2_eq (a : FVec Ideal S400x10000 .f32) (g : FVec Ideal S10000x40 .f32) (b : FVec Ideal S1x40 .f32) :
    k2_pay1 (F := Ideal) a g b = Cert.Gcn.lsmShiftLast (Cert.Gcn.logits a g (rowVec b)) := by
  rw [← logits_eq, ← lsmBody_eq]
  rfl

end Cert.KernelIdeal.Pay

end
-- ==== Proof.KRegion0.lean ====
/-
  The feature region: one grid point that loads `x`, `W1`, `W2` whole and stores `relu (x · W1) · W2` whole. For any
  contents `V` of the buffers at the region's entry, the output array after the region is that matrix of the arrays
  `V` holds.
-/
import proofs.«177056_g82514911691356_cont_sun_c4_703_2_alg».proof.Proof.Gen.KernelIdeal.Frame
import proofs.«177056_g82514911691356_cont_sun_c4_703_2_alg».proof.Proof.KPay
import Idealize.ShloMosaic.Lib.Pipeline.Value

set_option maxRecDepth 16384

noncomputable section

namespace Cert.KernelIdeal.Region0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every block index is zero: each window's block is its whole array. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The matrix the region computes, of the arrays it finds. -/
def G (c : Dev nD) : Cert.Gcn.Mat 10000 64 :=
  Cert.Gcn.feat (V c main_arg0) (V c main_arg2) (V c main_arg3)

theorem read_x (c : Dev nD) (t : Fin cfg0.N) : iblk0 V c 0 t = V c main_arg0 := by
  obtain ⟨e0, e1, -⟩ := idx_facts t
  funext y
  show V c main_arg0 (((cfg0.win 0).blk t).view.emb y) = _
  refine congrArg (V c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem read_w1 (c : Dev nD) (t : Fin cfg0.N) : iblk0 V c 1 t = V c main_arg2 := by
  obtain ⟨-, -, e2, e3, -⟩ := idx_facts t
  funext y
  show V c main_arg2 (((cfg0.win 1).blk t).view.emb y) = _
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem read_w2 (c : Dev nD) (t : Fin cfg0.N) : iblk0 V c 2 t = V c main_arg3 := by
  obtain ⟨-, -, -, -, e4, e5, -⟩ := idx_facts t
  funext y
  show V c main_arg3 (((cfg0.win 2).blk t).view.emb y) = _
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The one point writes back the whole of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S128x64) hz]
  rw [pay0_eq, read_x V c t, read_w1 V c t, read_w2 V c t]
  obtain ⟨-, -, -, -, -, -, e6, e7⟩ := idx_facts t
  funext j
  show G V c j = G V c (((cfg0.win 3).blk t).view.emb j)
  refine congrArg (G V c) (funext fun a => Fin.ext ?_)
  match a with
  | ⟨0, _⟩ => show (j 0).val = win0_3.index t (0 : Fin 2) * 10000 + 1 * (j 0).val; omega
  | ⟨1, _⟩ => show (j 1).val = win0_3.index t (1 : Fin 2) * 64 + 1 * (j 1).val; omega

theorem mem_blk (t : Fin cfg0.N) (i : S10000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v2).slice (win0_3.rect t)).set ↔ _
  rw [View.set_slice_whole, Rect.mem_set_unit]
  exact Iff.rfl

theorem cover (i : S10000x64.Idx) : ∃ t : Fin cfg0.N, (cfg0.win 3).flush t = true ∧ i ∈ ((cfg0.win 3).blk t).view.set := by
  have hi0 : (i 0).val < 10000 := (i 0).isLt
  have hi1 : (i 1).val < 64 := (i 1).isLt
  obtain ⟨-, -, -, -, -, -, e6, e7⟩ := idx_facts t0_0
  refine ⟨t0_0, flush0_3 t0_0, ?_⟩
  rw [mem_blk]
  intro a
  match a with
  | ⟨0, _⟩ => show win0_3.index t0_0 (0 : Fin 2) * 10000 ≤ (i 0).val ∧ (i 0).val < win0_3.index t0_0 (0 : Fin 2) * 10000 + 10000; omega
  | ⟨1, _⟩ => show win0_3.index t0_0 (1 : Fin 2) * 64 ≤ (i 1).val ∧ (i 1).val < win0_3.index t0_0 (1 : Fin 2) * 64 + 64; omega

/-- The output array after the region is `G`. -/
theorem final (c : Dev nD) : (dat0 V c).arrAt 3 cfg0.N = G V c :=
  (dat0 V c).arrAt_eq_of_cover 3 (G V c) (fun t _ => flushed_eq V c t) cover

end Cert.KernelIdeal.Region0

end
-- ==== Proof.SpecRows.lean ====
/-
  Row locality of the graph-convolution specification: row `y` of a product, of an aggregation, of the logits and of a
  row-wise log-softmax depends only on the matching row of the left factor (of the logits). So a computation made on a
  band of rows of the adjacency matrix yields the same rows of the whole result.
-/
import proofs.«177056_g82514911691356_cont_sun_c4_703_2_alg».proof.Proof.Spec

noncomputable section

namespace Cert.Gcn

open Idealize.ShloMosaic Idealize.ShloMosaic.ValueIdx

variable {M N K H A B : ℕ}

/-- If the rows of `lb` are the rows `ρ y` of `l`, the rows of `lb · r` are the rows `ρ y` of `l · r`. -/
theorem mm_rows (lb : Mat M K) (l : Mat N K) (r : Mat K H) (ρ : Fin M → Fin N)
    (h : ∀ y k, lb (ix2 y k) = l (ix2 (ρ y) k)) (y : Fin M) (j : Fin H) :
    mm lb r (ix2 y j) = mm l r (ix2 (ρ y) j) := by
  rw [mm_apply, mm_apply]
  exact Finset.sum_congr rfl fun k _ => by rw [h]

theorem addRow_rows (ab : Mat M H) (a : Mat N H) (b : Vect H) (ρ : Fin M → Fin N)
    (h : ∀ y k, ab (ix2 y k) = a (ix2 (ρ y) k)) (y : Fin M) (j : Fin H) :
    addRow ab b (ix2 y j) = addRow a b (ix2 (ρ y) j) := by
  rw [addRow_apply, addRow_apply, h]

theorem agg_rows (ab : Mat M K) (a : Mat N K) (h2 : Mat K A) (b1 : Vect A) (W3 : Mat A B) (ρ : Fin M → Fin N)
    (h : ∀ y k, ab (ix2 y k) = a (ix2 (ρ y) k)) (y : Fin M) (j : Fin B) :
    agg ab h2 b1 W3 (ix2 y j) = agg a h2 b1 W3 (ix2 (ρ y) j) :=
  mm_rows _ _ W3 ρ (fun y k => addRow_rows _ _ b1 ρ (fun y k => mm_rows ab a h2 ρ h y k) y k) y j

theorem logits_rows (ab : Mat M K) (a : Mat N K) (g : Mat K H) (b2 : Vect H) (ρ : Fin M → Fin N)
    (h : ∀ y k, ab (ix2 y k) = a (ix2 (ρ y) k)) (y : Fin M) (j : Fin H) :
    logits ab g b2 (ix2 y j) = logits a g b2 (ix2 (ρ y) j) :=
  addRow_rows _ _ b2 ρ (fun y k => mm_rows ab a g ρ h y k) y j

theorem rowMax_rows (Lb : Mat M H) (L : Mat N H) (ρ : Fin M → Fin N)
    (h : ∀ y k, Lb (ix2 y k) = L (ix2 (ρ y) k)) (y : Fin M) : rowMax Lb y = rowMax L (ρ y) := by
  unfold rowMax
  exact congrArg (fun f => (Finset.univ : Finset (Fin H)).fold max (Ideal.ofBits .f32 0xFF800000#32) f) (funext fun k => h y k)

theorem rowLse_rows (Lb : Mat M H) (L : Mat N H) (ρ : Fin M → Fin N)
    (h : ∀ y k, Lb (ix2 y k) = L (ix2 (ρ y) k)) (y : Fin M) : rowLse Lb y = rowLse L (ρ y) := by
  unfold rowLse
  rw [rowMax_rows Lb L ρ h y]
  exact congrArg _ (Finset.sum_congr rfl fun k _ => by rw [h])

/-- The log-softmax of a band of rows is the band of the log-softmax. -/
theorem lsmShiftLast_rows (Lb : Mat M H) (L : Mat N H) (ρ : Fin M → Fin N)
    (h : ∀ y k, Lb (ix2 y k) = L (ix2 (ρ y) k)) (y : Fin M) (j : Fin H) :
    lsmShiftLast Lb (ix2 y j) = lsmShiftLast L (ix2 (ρ y) j) := by
  rw [lsmShiftLast_apply, lsmShiftLast_apply, h, rowLse_rows Lb L ρ h y, rowMax_rows Lb L ρ h y]

end Cert.Gcn

end
-- ==== Proof.KRegion1.lean ====
/-
  The first aggregation region: 25 grid points, point `t` computing rows `400 t … 400 t + 399` of
  `(adj · h2 + b1) · W3` from the band of those rows of the adjacency matrix and the whole of the other operands.
  For any contents `V` of the buffers at the region's entry, the output array after the region is that matrix of the
  arrays `V` holds: every point writes back the block of it that its output window names, and the 25 blocks cover it.
-/
import proofs.«177056_g82514911691356_cont_sun_c4_703_2_alg».proof.Proof.Gen.KernelIdeal.Frame
import proofs.«177056_g82514911691356_cont_sun_c4_703_2_alg».proof.Proof.KPay
import proofs.«177056_g82514911691356_cont_sun_c4_703_2_alg».proof.Proof.SpecRows
import Idealize.ShloMosaic.Lib.Pipeline.Value

set_option maxRecDepth 16384

noncomputable section

namespace Cert.KernelIdeal.Region1

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency band and the output block move together along the rows, every
    other block index is zero, and the row-block index stays below 25. -/
theorem idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 24 :=
  (by decide +kernel : ∀ t : Fin grid1.N, _)

/-- Every row block is some point's. -/
theorem idx_onto : ∀ q : Fin 25, ∃ t : Fin cfg1.N, win1_4.index t = ![q.val, 0] :=
  (by decide +kernel : ∀ q : Fin 25, ∃ t : Fin grid1.N, win1_4.index t = ![q.val, 0])

/-- The matrix the region computes, of the arrays it finds. -/
def G (c : Dev nD) : Cert.Gcn.Mat 10000 40 :=
  Cert.Gcn.agg (V c main_arg1) (V c main_v2) (rowVec (V c main_v0)) (V c main_arg5)

/-- A band of the aggregation, from blocks that are the band of the adjacency matrix and the other operands whole. -/
theorem band_agg (adj : Cert.Gcn.Mat 10000 10000) (h2 : Cert.Gcn.Mat 10000 64) (b1 : Cert.Gcn.Vect 64) (W3 : Cert.Gcn.Mat 64 40)
    (ab : Cert.Gcn.Mat 400 10000) (T : ℕ) (hT : T ≤ 24)
    (hab : ∀ (y : Fin 400) (k : Fin 10000), ab (ix2 y k) = adj (ix2 (⟨T * 400 + y.val, by have := y.isLt; omega⟩ : Fin 10000) k))
    (j : (⟨2, ![400, 40]⟩ : Shape).Idx) (i : (⟨2, ![10000, 40]⟩ : Shape).Idx)
    (hi0 : (i 0).val = T * 400 + (j 0).val) (hi1 : (i 1).val = (j 1).val) :
    Cert.Gcn.agg ab h2 b1 W3 j = Cert.Gcn.agg adj h2 b1 W3 i := by
  have ej := eq_ix2 j
  have ei : i = ix2 (⟨T * 400 + (j 0).val, by have hj : (j 0).val < 400 := (j 0).isLt; omega⟩ : Fin 10000) (j 1) :=
    funext fun a => Fin.ext (by
      match a with
      | ⟨0, _⟩ => exact hi0
      | ⟨1, _⟩ => exact hi1)
  rw [ej, ei]
  exact Cert.Gcn.agg_rows ab adj h2 b1 W3 (fun y => (⟨T * 400 + y.val, by have := y.isLt; omega⟩ : Fin 10000)) hab (j 0) (j 1)

/-! ## What a point writes back -/

/-- The adjacency band at point `t`: rows `400 T …` of the array, `T` the output block's row index. -/
theorem read_adj (c : Dev nD) (t : Fin cfg1.N) (y : Fin 400) (k : Fin 10000) :
    iblk1 V c 0 t (ix2 y k)
      = V c main_arg1 (ix2 (⟨win1_4.index t (0 : Fin 2) * 400 + y.val, by
          have := (idx_facts t).2.2.2.2.2.2.2.2.2; have := y.isLt; omega⟩ : Fin 10000) k) := by
  obtain ⟨e0, e1, -⟩ := idx_facts t
  show V c main_arg1 (((cfg1.win 0).blk t).view.emb (ix2 y k)) = _
  refine congrArg (V c main_arg1) (funext fun a => Fin.ext ?_)
  match a with
  | ⟨0, _⟩ => show win1_0.index t (0 : Fin 2) * 400 + 1 * y.val = win1_4.index t (0 : Fin 2) * 400 + y.val; omega
  | ⟨1, _⟩ => show win1_0.index t (1 : Fin 2) * 10000 + 1 * k.val = k.val; omega

/-- The other three input blocks are the whole arrays. -/
theorem read_h2 (c : Dev nD) (t : Fin cfg1.N) : iblk1 V c 1 t = V c main_v2 := by
  obtain ⟨-, -, e2, e3, -⟩ := idx_facts t
  funext y
  show V c main_v2 (((cfg1.win 1).blk t).view.emb y) = _
  refine congrArg (V c main_v2) (funext fun a => Fin.ext ?_)
  match a with
  | ⟨0, _⟩ => show win1_1.index t (0 : Fin 2) * 10000 + 1 * (y 0).val = (y 0).val; omega
  | ⟨1, _⟩ => show win1_1.index t (1 : Fin 2) * 64 + 1 * (y 1).val = (y 1).val; omega

theorem read_b1 (c : Dev nD) (t : Fin cfg1.N) : iblk1 V c 2 t = V c main_v0 := by
  obtain ⟨-, -, -, -, e4, e5, -⟩ := idx_facts t
  funext y
  show V c main_v0 (((cfg1.win 2).blk t).view.emb y) = _
  refine congrArg (V c main_v0) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

theorem read_w3 (c : Dev nD) (t : Fin cfg1.N) : iblk1 V c 3 t = V c main_arg5 := by
  obtain ⟨-, -, -, -, -, -, e6, e7, -⟩ := idx_facts t
  funext y
  show V c main_arg5 (((cfg1.win 3).blk t).view.emb y) = _
  refine congrArg (V c main_arg5) (funext fun a => Fin.ext ?_)
  match a with
  | ⟨0, _⟩ => show win1_3.index t (0 : Fin 2) * 64 + 1 * (y 0).val = (y 0).val; omega
  | ⟨1, _⟩ => show win1_3.index t (1 : Fin 2) * 40 + 1 * (y 1).val = (y 1).val; omega

/-- Point `t` writes back block `t` of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x64) hz, View.ld_unit_zero (S := S1x64) hz,
    View.ld_unit_zero (S := S64x40) hz]
  rw [pay1_eq, read_h2 V c t, read_b1 V c t, read_w3 V c t]
  obtain ⟨-, -, -, -, -, -, -, -, e8, e9⟩ := idx_facts t
  funext j
  show Cert.Gcn.agg (iblk1 V c 0 t) (V c main_v2) (rowVec (V c main_v0)) (V c main_arg5) j
    = G V c (((cfg1.win 4).blk t).view.emb j)
  refine band_agg (V c main_arg1) (V c main_v2) (rowVec (V c main_v0)) (V c main_arg5) (iblk1 V c 0 t)
    (win1_4.index t (0 : Fin 2)) e9 (read_adj V c t) j _ ?_ ?_
  · show win1_4.index t (0 : Fin 2) * 400 + 1 * (j 0).val = win1_4.index t (0 : Fin 2) * 400 + (j 0).val; omega
  · show win1_4.index t (1 : Fin 2) * 40 + 1 * (j 1).val = (j 1).val; omega

/-! ## The blocks cover the array -/

theorem mem_blk (t : Fin cfg1.N) (i : S10000x40.Idx) :
    i ∈ ((cfg1.win 4).blk t).view.set ↔ ∀ a : Fin 2, win1_4.index t a * S400x40.size a ≤ (i a).val ∧ (i a).val < win1_4.index t a * S400x40.size a + S400x40.size a := by
  show i ∈ ((View.whole main_v3).slice (win1_4.rect t)).set ↔ _
  rw [View.set_slice_whole, Rect.mem_set_unit]
  exact Iff.rfl

theorem cover (i : S10000x40.Idx) : ∃ t : Fin cfg1.N, (cfg1.win 4).flush t = true ∧ i ∈ ((cfg1.win 4).blk t).view.set := by
  have hi0 : (i 0).val < 10000 := (i 0).isLt
  have hi1 : (i 1).val < 40 := (i 1).isLt
  obtain ⟨t, ht⟩ := idx_onto ⟨(i 0).val / 400, by omega⟩
  have q0 : win1_4.index t (0 : Fin 2) = (i 0).val / 400 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 40 ≤ (i 1).val ∧ (i 1).val < win1_4.index t (1 : Fin 2) * 40 + 40; omega

/-- The output array after the region is `G`. -/
theorem final (c : Dev nD) : (dat1 V c).arrAt 4 cfg1.N = G V c :=
  (dat1 V c).arrAt_eq_of_cover 4 (G V c) (fun t _ => flushed_eq V c t) cover

end Cert.KernelIdeal.Region1

end
-- ==== Proof.KRegion2.lean ====
/-
  The second aggregation region: 25 grid points, point `t` computing rows `400 t … 400 t + 399` of the row-wise
  log-softmax of `adj · g + b2` from the band of those rows of the adjacency matrix and the whole of the other operands;
  a row of the log-softmax depends on that row of the logits only. For any contents `V` of the buffers at the region's
  entry, the output array after the region is that matrix of the arrays `V` holds.
-/
import proofs.«177056_g82514911691356_cont_sun_c4_703_2_alg».proof.Proof.Gen.KernelIdeal.Frame
import proofs.«177056_g82514911691356_cont_sun_c4_703_2_alg».proof.Proof.KPay
import proofs.«177056_g82514911691356_cont_sun_c4_703_2_alg».proof.Proof.SpecRows
import Idealize.ShloMosaic.Lib.Pipeline.Value

set_option maxRecDepth 16384

noncomputable section

namespace Cert.KernelIdeal.Region2

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency band and the output block move together along the rows, every
    other block index is zero, and the row-block index stays below 25. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 24 :=
  (by decide +kernel : ∀ t : Fin grid2.N, _)

/-- Every row block is some point's. -/
theorem idx_onto : ∀ q : Fin 25, ∃ t : Fin cfg2.N, win2_3.index t = ![q.val, 0] :=
  (by decide +kernel : ∀ q : Fin 25, ∃ t : Fin grid2.N, win2_3.index t = ![q.val, 0])

/-- The matrix the region computes, of the arrays it finds. -/
def G (c : Dev nD) : Cert.Gcn.Mat 10000 40 :=
  Cert.Gcn.lsmShiftLast (Cert.Gcn.logits (V c main_arg1) (V c main_v3) (rowVec (V c main_v1)))

/-- A band of the log-softmax of the logits, from blocks that are the band of the adjacency matrix and the other
    operands whole. -/
theorem band_lsm (adj : Cert.Gcn.Mat 10000 10000) (g : Cert.Gcn.Mat 10000 40) (b2 : Cert.Gcn.Vect 40)
    (ab : Cert.Gcn.Mat 400 10000) (T : ℕ) (hT : T ≤ 24)
    (hab : ∀ (y : Fin 400) (k : Fin 10000), ab (ix2 y k) = adj (ix2 (⟨T * 400 + y.val, by have := y.isLt; omega⟩ : Fin 10000) k))
    (j : (⟨2, ![400, 40]⟩ : Shape).Idx) (i : (⟨2, ![10000, 40]⟩ : Shape).Idx)
    (hi0 : (i 0).val = T * 400 + (j 0).val) (hi1 : (i 1).val = (j 1).val) :
    Cert.Gcn.lsmShiftLast (Cert.Gcn.logits ab g b2) j = Cert.Gcn.lsmShiftLast (Cert.Gcn.logits adj g b2) i := by
  have ej := eq_ix2 j
  have ei : i = ix2 (⟨T * 400 + (j 0).val, by have hj : (j 0).val < 400 := (j 0).isLt; omega⟩ : Fin 10000) (j 1) :=
    funext fun a => Fin.ext (by
      match a with
      | ⟨0, _⟩ => exact hi0
      | ⟨1, _⟩ => exact hi1)
  rw [ej, ei]
  exact Cert.Gcn.lsmShiftLast_rows (Cert.Gcn.logits ab g b2) (Cert.Gcn.logits adj g b2)
    (fun y => (⟨T * 400 + y.val, by have := y.isLt; omega⟩ : Fin 10000))
    (fun y k => Cert.Gcn.logits_rows ab adj g b2 (fun y => (⟨T * 400 + y.val, by have := y.isLt; omega⟩ : Fin 10000)) hab y k)
    (j 0) (j 1)

/-! ## What a point writes back -/

/-- The adjacency band at point `t`: rows `400 T …` of the array, `T` the output block's row index. -/
theorem read_adj (c : Dev nD) (t : Fin cfg2.N) (y : Fin 400) (k : Fin 10000) :
    iblk2 V c 0 t (ix2 y k)
      = V c main_arg1 (ix2 (⟨win2_3.index t (0 : Fin 2) * 400 + y.val, by
          have := (idx_facts t).2.2.2.2.2.2.2; have := y.isLt; omega⟩ : Fin 10000) k) := by
  obtain ⟨e0, e1, -⟩ := idx_facts t
  show V c main_arg1 (((cfg2.win 0).blk t).view.emb (ix2 y k)) = _
  refine congrArg (V c main_arg1) (funext fun a => Fin.ext ?_)
  match a with
  | ⟨0, _⟩ => show win2_0.index t (0 : Fin 2) * 400 + 1 * y.val = win2_3.index t (0 : Fin 2) * 400 + y.val; omega
  | ⟨1, _⟩ => show win2_0.index t (1 : Fin 2) * 10000 + 1 * k.val = k.val; omega

/-- The other two input blocks are the whole arrays. -/
theorem read_g (c : Dev nD) (t : Fin cfg2.N) : iblk2 V c 1 t = V c main_v3 := by
  obtain ⟨-, -, e2, e3, -⟩ := idx_facts t
  funext y
  show V c main_v3 (((cfg2.win 1).blk t).view.emb y) = _
  refine congrArg (V c main_v3) (funext fun a => Fin.ext ?_)
  match a with
  | ⟨0, _⟩ => show win2_1.index t (0 : Fin 2) * 10000 + 1 * (y 0).val = (y 0).val; omega
  | ⟨1, _⟩ => show win2_1.index t (1 : Fin 2) * 40 + 1 * (y 1).val = (y 1).val; omega

theorem read_b2 (c : Dev nD) (t : Fin cfg2.N) : iblk2 V c 2 t = V c main_v1 := by
  obtain ⟨-, -, -, -, e4, e5, -⟩ := idx_facts t
  funext y
  show V c main_v1 (((cfg2.win 2).blk t).view.emb y) = _
  refine congrArg (V c main_v1) (funext fun a => Fin.ext ?_)
  match a with
  | ⟨0, _⟩ => show win2_2.index t (0 : Fin 2) * 1 + 1 * (y 0).val = (y 0).val; omega
  | ⟨1, _⟩ => show win2_2.index t (1 : Fin 2) * 40 + 1 * (y 1).val = (y 1).val; omega

/-- Point `t` writes back block `t` of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x40) hz, View.ld_unit_zero (S := S1x40) hz]
  rw [pay2_eq, read_g V c t, read_b2 V c t]
  obtain ⟨-, -, -, -, -, -, e6, e7⟩ := idx_facts t
  funext j
  show Cert.Gcn.lsmShiftLast (Cert.Gcn.logits (iblk2 V c 0 t) (V c main_v3) (rowVec (V c main_v1))) j
    = G V c (((cfg2.win 3).blk t).view.emb j)
  refine band_lsm (V c main_arg1) (V c main_v3) (rowVec (V c main_v1)) (iblk2 V c 0 t)
    (win2_3.index t (0 : Fin 2)) e7 (read_adj V c t) j _ ?_ ?_
  · show win2_3.index t (0 : Fin 2) * 400 + 1 * (j 0).val = win2_3.index t (0 : Fin 2) * 400 + (j 0).val; omega
  · show win2_3.index t (1 : Fin 2) * 40 + 1 * (j 1).val = (j 1).val; omega

/-! ## The blocks cover the array -/

theorem mem_blk (t : Fin cfg2.N) (i : S10000x40.Idx) :
    i ∈ ((cfg2.win 3).blk t).view.set ↔ ∀ a : Fin 2, win2_3.index t a * S400x40.size a ≤ (i a).val ∧ (i a).val < win2_3.index t a * S400x40.size a + S400x40.size a := by
  show i ∈ ((View.whole main_v4).slice (win2_3.rect t)).set ↔ _
  rw [View.set_slice_whole, Rect.mem_set_unit]
  exact Iff.rfl

theorem cover (i : S10000x40.Idx) : ∃ t : Fin cfg2.N, (cfg2.win 3).flush t = true ∧ i ∈ ((cfg2.win 3).blk t).view.set := by
  have hi0 : (i 0).val < 10000 := (i 0).isLt
  have hi1 : (i 1).val < 40 := (i 1).isLt
  obtain ⟨t, ht⟩ := idx_onto ⟨(i 0).val / 400, by omega⟩
  have q0 : win2_3.index t (0 : Fin 2) = (i 0).val / 400 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 40 ≤ (i 1).val ∧ (i 1).val < win2_3.index t (1 : Fin 2) * 40 + 40; omega

/-- The output array after the region is `G`. -/
theorem final (c : Dev nD) : (dat2 V c).arrAt 3 cfg2.N = G V c :=
  (dat2 V c).arrAt_eq_of_cover 3 (G V c) (fun t _ => flushed_eq V c t) cover

end Cert.KernelIdeal.Region2

end
-- ==== Proof.KChain.lean ====
/-
  The result of the three regions in terms of the launch memory. The feature region reads `x`, `W1`, `W2` as
  launched; the first aggregation reads the adjacency matrix and `W3` as launched, the feature region's output, and
  the bias `b1` reshaped to one row; the second reads the adjacency matrix as launched, the first aggregation's output,
  and `b2` reshaped to one row. No region and no host operation writes an argument, and a region writes only its
  output array. So the result array is the row-wise log-softmax (the shift undone last) of the network's logits of the
  seven launched arrays.
-/
import proofs.«177056_g82514911691356_cont_sun_c4_703_2_alg».proof.Proof.Gen.KernelIdeal.Frame
import proofs.«177056_g82514911691356_cont_sun_c4_703_2_alg».proof.Proof.KRegion0
import proofs.«177056_g82514911691356_cont_sun_c4_703_2_alg».proof.Proof.KRegion1
import proofs.«177056_g82514911691356_cont_sun_c4_703_2_alg».proof.Proof.KRegion2
import Idealize.ShloMosaic.Lib.ValueLayout

set_option maxRecDepth 16384

noncomputable section

namespace Cert.KernelIdeal.Chain

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The arguments, before the first region -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The two reshaped biases -/

/-- The one row of a vector reshaped to `[1, n]` is the vector. -/
theorem rowVec_reshape {n : ℕ} (x : (⟨1, ![n]⟩ : Shape).Idx → EReal) (h : (⟨1, ![n]⟩ : Shape).ShapeCasts ⟨2, ![1, n]⟩) :
    rowVec (shapeCast ⟨2, ![1, n]⟩ x h) = x := by
  funext i
  obtain ⟨k, rfl⟩ : ∃ k : Fin n, i = ix1 k := ⟨i 0, eq_ix1 i⟩
  exact shapeCast_a_1a_apply x h (0 : Fin 1) k

theorem W1_main_v0 (c : Dev nD) :
    W1 m ρ c (Proc.devRef .tc main_v0) = shapeCast S1x64 (m ((c : Thread nD τ).loc main_arg4)) shapeCasts_S64_S1x64 := by
  show StableHlo.after hostOps0 (W0 m ρ c) (Proc.devRef .tc main_v0) = _
  after_results
  rfl

theorem W1_main_v1 (c : Dev nD) :
    W1 m ρ c (Proc.devRef .tc main_v1) = shapeCast S1x40 (m ((c : Thread nD τ).loc main_arg6)) shapeCasts_S40_S1x40 := by
  show StableHlo.after hostOps0 (W0 m ρ c) (Proc.devRef .tc main_v1) = _
  after_results
  rfl

/-! ## What each region finds and leaves -/

/-- The feature region's output. -/
theorem W2_main_v2 (c : Dev nD) :
    W2 m ρ c (Proc.devRef .tc main_v2)
      = Cert.Gcn.feat (m ((c : Thread nD τ).loc main_arg0)) (m ((c : Thread nD τ).loc main_arg2)) (m ((c : Thread nD τ).loc main_arg3)) := by
  refine (W2_arr m ρ c 3).trans ((Region0.final (V1 m ρ) c).trans ?_)
  unfold Region0.G
  rw [show V1 m ρ c main_arg0 = m ((c : Thread nD τ).loc main_arg0) from W1_main_arg0 m ρ c,
    show V1 m ρ c main_arg2 = m ((c : Thread nD τ).loc main_arg2) from W1_main_arg2 m ρ c,
    show V1 m ρ c main_arg3 = m ((c : Thread nD τ).loc main_arg3) from W1_main_arg3 m ρ c]

theorem W2_main_arg1 (c : Dev nD) : W2 m ρ c (Proc.devRef .tc main_arg1) = m ((c : Thread nD τ).loc main_arg1) :=
  (W2_of_ne m ρ c main_arg1 (by decide)).trans (W1_main_arg1 m ρ c)

theorem W2_main_arg5 (c : Dev nD) : W2 m ρ c (Proc.devRef .tc main_arg5) = m ((c : Thread nD τ).loc main_arg5) :=
  (W2_of_ne m ρ c main_arg5 (by decide)).trans (W1_main_arg5 m ρ c)

theorem W2_main_v0 (c : Dev nD) :
    W2 m ρ c (Proc.devRef .tc main_v0) = shapeCast S1x64 (m ((c : Thread nD τ).loc main_arg4)) shapeCasts_S64_S1x64 :=
  (W2_of_ne m ρ c main_v0 (by decide)).trans (W1_main_v0 m ρ c)

theorem W2_main_v1 (c : Dev nD) :
    W2 m ρ c (Proc.devRef .tc main_v1) = shapeCast S1x40 (m ((c : Thread nD τ).loc main_arg6)) shapeCasts_S40_S1x40 :=
  (W2_of_ne m ρ c main_v1 (by decide)).trans (W1_main_v1 m ρ c)

/-- The first aggregation's output. -/
theorem W3_main_v3 (c : Dev nD) :
    W3 m ρ c (Proc.devRef .tc main_v3)
      = Cert.Gcn.agg (m ((c : Thread nD τ).loc main_arg1))
          (Cert.Gcn.feat (m ((c : Thread nD τ).loc main_arg0)) (m ((c : Thread nD τ).loc main_arg2)) (m ((c : Thread nD τ).loc main_arg3)))
          (m ((c : Thread nD τ).loc main_arg4)) (m ((c : Thread nD τ).loc main_arg5)) := by
  refine (W3_arr m ρ c 4).trans ((Region1.final (V2 m ρ) c).trans ?_)
  unfold Region1.G
  rw [show V2 m ρ c main_arg1 = m ((c : Thread nD τ).loc main_arg1) from W2_main_arg1 m ρ c,
    show V2 m ρ c main_v2 = _ from W2_main_v2 m ρ c,
    show V2 m ρ c main_v0 = _ from W2_main_v0 m ρ c,
    show V2 m ρ c main_arg5 = m ((c : Thread nD τ).loc main_arg5) from W2_main_arg5 m ρ c,
    rowVec_reshape]

theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)

theorem W3_main_v1 (c : Dev nD) :
    W3 m ρ c (Proc.devRef .tc main_v1) = shapeCast S1x40 (m ((c : Thread nD τ).loc main_arg6)) shapeCasts_S40_S1x40 :=
  (W3_of_ne m ρ c main_v1 (by decide)).trans (W2_main_v1 m ρ c)

/-- The result array after the three regions. -/
theorem result (c : Dev nD) :
    W4 m ρ c (Proc.devRef .tc main_v4)
      = Cert.Gcn.lsmShiftLast (Cert.Gcn.netLogits (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))) := by
  refine (W4_arr m ρ c 3).trans ((Region2.final (V3 m ρ) c).trans ?_)
  unfold Region2.G
  rw [show V3 m ρ c main_arg1 = m ((c : Thread nD τ).loc main_arg1) from W3_main_arg1 m ρ c,
    show V3 m ρ c main_v3 = _ from W3_main_v3 m ρ c,
    show V3 m ρ c main_v1 = _ from W3_main_v1 m ρ c,
    rowVec_reshape]
  rfl

end Cert.KernelIdeal.Chain

end
-- ==== Proof.RefValue.lean ====
/-
  The reference program's result, read as the specification.

  Stage by stage, each value the reference writes is the specification's function of the seven inputs: the three
  matrix products and the positive part give `feat`, the bias row and the next product `agg`, the last product and
  bias row the logits `L`. The reference's log-softmax then computes, for row `p`, `m p = max (−∞) (max over the row)`,
  which is the row maximum folded from −∞; `(L p j − m p)`; the row sum of `exp (L p k − m p)` from the zero word;
  its logarithm; and the difference of the two: `(L p j − m p) − lse p`, the shift made first.
-/
import proofs.«177056_g82514911691356_cont_sun_c4_703_2_alg».proof.Proof.RefReadP
import proofs.«177056_g82514911691356_cont_sun_c4_703_2_alg».proof.Proof.Spec
import proofs.«177056_g82514911691356_cont_sun_c4_703_2_alg».proof.Proof.LibKeepdims

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.ReadP Cert.Gcn

/-- Two rank-2 indices with the same two coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128x64, .f32⟩ : BufTy).Contents (Elt Ideal))
  (x4 : (⟨S64, .f32⟩ : BufTy).Contents (Elt Ideal)) (x5 : (⟨S64x40, .f32⟩ : BufTy).Contents (Elt Ideal))
  (x6 : (⟨S40, .f32⟩ : BufTy).Contents (Elt Ideal))

/-! ## The logits -/

/-- A sum over the contracted coordinate whose operand indices are `(i 0, k)` and `(k, i 1)` is the matrix product at `i`. -/
theorem sum_eq_mm {N K H : ℕ} (l : Mat N K) (r : Mat K H) (i : (⟨2, ![N, H]⟩ : Shape).Idx)
    (li : Fin K → (⟨2, ![N, K]⟩ : Shape).Idx) (ri : Fin K → (⟨2, ![K, H]⟩ : Shape).Idx)
    (hl : ∀ k, li k = ix2 (i 0) k) (hr : ∀ k, ri k = ix2 k (i 1)) :
    ∑ k : Fin K, l (li k) * r (ri k) = mm l r i :=
  Finset.sum_congr rfl fun k _ => by rw [hl, hr]; rfl

theorem v0_eq : val_main_v0 (F := Ideal) x0 x2 = mm x0 x2 := by
  funext i
  refine (val_main_v0_apply x0 x2 i).trans ?_
  exact sum_eq_mm (x0) (x2) i _ _ (fun k => by idx2) (fun k => by idx2)

theorem v1_eq : val_main_v1 (F := Ideal) x0 x2 = relu (mm x0 x2) := by
  funext i
  refine (val_main_v1_apply x0 x2 i).trans ?_
  rw [v0_eq, val_main_call0_v0_apply]
  rfl

theorem v2_eq : val_main_v2 (F := Ideal) x0 x2 x3 = feat x0 x2 x3 := by
  funext i
  refine (val_main_v2_apply x0 x2 x3 i).trans ?_
  rw [v1_eq]
  exact sum_eq_mm (relu (mm x0 x2)) (x3) i _ _ (fun k => by idx2) (fun k => by idx2)

theorem v3_eq : val_main_v3 (F := Ideal) x0 x1 x2 x3 = mm x1 (feat x0 x2 x3) := by
  funext i
  refine (val_main_v3_apply x0 x1 x2 x3 i).trans ?_
  rw [v2_eq]
  exact sum_eq_mm (x1) (feat x0 x2 x3) i _ _ (fun k => by idx2) (fun k => by idx2)

theorem v5_apply (i : S10000x64.Idx) : val_main_v5 (F := Ideal) x4 i = x4 (ix1 (i 1)) := by
  rw [val_main_v5_apply, val_main_v4_apply]
  exact congrArg x4 (by idx1)

theorem v6_eq : val_main_v6 (F := Ideal) x0 x1 x2 x3 x4 = addRow (mm x1 (feat x0 x2 x3)) x4 := by
  funext i
  refine (val_main_v6_apply x0 x1 x2 x3 x4 i).trans ?_
  rw [v3_eq, v5_apply]
  rfl

theorem v7_eq : val_main_v7 (F := Ideal) x0 x1 x2 x3 x4 x5 = agg x1 (feat x0 x2 x3) x4 x5 := by
  funext i
  refine (val_main_v7_apply x0 x1 x2 x3 x4 x5 i).trans ?_
  rw [v6_eq]
  exact sum_eq_mm (addRow (mm x1 (feat x0 x2 x3)) x4) (x5) i _ _ (fun k => by idx2) (fun k => by idx2)

theorem v8_eq : val_main_v8 (F := Ideal) x0 x1 x2 x3 x4 x5 = mm x1 (agg x1 (feat x0 x2 x3) x4 x5) := by
  funext i
  refine (val_main_v8_apply x0 x1 x2 x3 x4 x5 i).trans ?_
  rw [v7_eq]
  exact sum_eq_mm (x1) (agg x1 (feat x0 x2 x3) x4 x5) i _ _ (fun k => by idx2) (fun k => by idx2)

theorem v10_apply (i : S10000x40.Idx) : val_main_v10 (F := Ideal) x6 i = x6 (ix1 (i 1)) := by
  rw [val_main_v10_apply, val_main_v9_apply]
  exact congrArg x6 (by idx1)

theorem v11_eq : val_main_v11 (F := Ideal) x0 x1 x2 x3 x4 x5 x6 = netLogits x0 x1 x2 x3 x4 x5 x6 := by
  funext i
  refine (val_main_v11_apply x0 x1 x2 x3 x4 x5 x6 i).trans ?_
  rw [v8_eq, v10_apply]
  rfl

/-! ## The log-softmax -/

/-- The float word of −∞ is the bottom element. -/
theorem ofBits_neg_inf : Ideal.ofBits .f32 0xFF800000#32 = (⊥ : EReal) := by simp [Ideal.ofBits, Ideal.ieee]

/-- The host's maximum along the rows of a matrix, at the ideal values, is the fold of `max` from the initial value
    over the row's entries. -/
theorem hostRowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduce FloatOps.maximumf x init h' hu (ix1 p)
      = (Finset.univ : Finset (Fin b)).fold max (init ix0) (fun k => x (ix2 p k)) := by
  refine (Host.reduce_eq_fold_single FloatOps.maximumf x init h' h hu (ix1 p)).trans ?_
  have e : init (Shape.Idx.first hu) = init ix0 := congrArg init (funext fun c => c.elim0)
  rw [e]
  have hf : (x ∘ h.lift (ix1 p)) = fun k : Fin b => x (ix2 p k) :=
    funext fun k => congrArg x (funext fun c => Fin.ext (by
      match c with
      | ⟨0, _⟩ => rfl
      | ⟨1, _⟩ => rfl))
  exact congrArg (fun f => Finset.fold max (init ix0) f (Finset.univ : Finset (Fin b))) hf

/-- The reduction by maximum, at row `p`, is the row maximum of the logits. -/
theorem c1v0_apply (p : Fin 10000) :
    val_main_call1_v0 (F := Ideal) x0 x1 x2 x3 x4 x5 x6 (ix1 p) = rowMax (netLogits x0 x1 x2 x3 x4 x5 x6) p := by
  unfold val_main_call1_v0
  rw [v11_eq]
  exact hostRowMax_apply _ _ reducesTo_S10000x40_S10000_d1 h_S_ (by decide) p

/-- The maximum with the broadcast −∞ changes nothing. -/
theorem c1v2_apply (p : Fin 10000) :
    val_main_call1_v2 (F := Ideal) x0 x1 x2 x3 x4 x5 x6 (ix1 p) = rowMax (netLogits x0 x1 x2 x3 x4 x5 x6) p := by
  refine (val_main_call1_v2_apply x0 x1 x2 x3 x4 x5 x6 (ix1 p)).trans ?_
  rw [c1v0_apply, val_main_call1_v1_apply]
  show max (Ideal.ofBits .f32 0xFF800000#32) (rowMax (netLogits x0 x1 x2 x3 x4 x5 x6) p) = _
  rw [ofBits_neg_inf]
  exact max_eq_right bot_le

/-- The row maximum broadcast back over the row. -/
theorem c1v4_apply (i : S10000x40.Idx) :
    val_main_call1_v4 (F := Ideal) x0 x1 x2 x3 x4 x5 x6 i = rowMax (netLogits x0 x1 x2 x3 x4 x5 x6) (i 0) := by
  rw [val_main_call1_v4_apply, val_main_call1_v3_apply,
    show idx_main_call1_v3 (idx_main_call1_v4 i) = ix1 (i 0) by idx1]
  exact c1v2_apply x0 x1 x2 x3 x4 x5 x6 (i 0)

/-- The shifted logits. -/
theorem c1v5_apply (i : S10000x40.Idx) :
    val_main_call1_v5 (F := Ideal) x0 x1 x2 x3 x4 x5 x6 i
      = netLogits x0 x1 x2 x3 x4 x5 x6 i - rowMax (netLogits x0 x1 x2 x3 x4 x5 x6) (i 0) := by
  refine (val_main_call1_v5_apply x0 x1 x2 x3 x4 x5 x6 i).trans ?_
  rw [v11_eq, c1v4_apply]
  rfl

/-- The row sum of the exponentials of the shifted logits, from the zero word. -/
theorem c1v7_apply (p : Fin 10000) :
    val_main_call1_v7 (F := Ideal) x0 x1 x2 x3 x4 x5 x6 (ix1 p)
      = ∑ k : Fin 40, Ideal.exp (netLogits x0 x1 x2 x3 x4 x5 x6 (ix2 p k) - rowMax (netLogits x0 x1 x2 x3 x4 x5 x6) p) := by
  refine (val_main_call1_v7_apply x0 x1 x2 x3 x4 x5 x6 (ix1 p)).trans ?_
  rw [val_main_call1_cst_1_apply]
  show Ideal.ofBits .f32 0x00000000#32 + _ = _
  rw [Ideal.ofBits_zero_f32, zero_add]
  refine Finset.sum_congr rfl fun k _ => ?_
  rw [show idx_main_call1_v7 (ix1 p) k = ix2 p k by idx2]
  refine (val_main_call1_v6_apply x0 x1 x2 x3 x4 x5 x6 (ix2 p k)).trans ?_
  rw [c1v5_apply]
  rfl

/-- The logarithm of the row sum, broadcast back over the row. -/
theorem c1v10_apply (i : S10000x40.Idx) :
    val_main_call1_v10 (F := Ideal) x0 x1 x2 x3 x4 x5 x6 i = rowLse (netLogits x0 x1 x2 x3 x4 x5 x6) (i 0) := by
  rw [val_main_call1_v10_apply]
  refine (val_main_call1_v9_apply x0 x1 x2 x3 x4 x5 x6 _).trans ?_
  rw [val_main_call1_v8_apply, show idx_main_call1_v8 (idx_main_call1_v10 i) = ix1 (i 0) by idx1]
  exact congrArg Ideal.log (c1v7_apply x0 x1 x2 x3 x4 x5 x6 (i 0))

/-- The reference's result is the log-softmax of the logits, the shift by the maximum made first. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128x64, .f32⟩ : BufTy).Contents (Elt Ideal))
    (x4 : (⟨S64, .f32⟩ : BufTy).Contents (Elt Ideal)) (x5 : (⟨S64x40, .f32⟩ : BufTy).Contents (Elt Ideal))
    (x6 : (⟨S40, .f32⟩ : BufTy).Contents (Elt Ideal)) :
    Cert.ReferenceIdeal.ReadP.val_main_v12 (F := Ideal) x0 x1 x2 x3 x4 x5 x6
      = Cert.Gcn.lsmShiftFirst (Cert.Gcn.netLogits x0 x1 x2 x3 x4 x5 x6) := by
  funext i
  refine (val_main_v12_apply x0 x1 x2 x3 x4 x5 x6 i).trans ?_
  rw [c1v5_apply, c1v10_apply]
  rfl

/-- Every weakly fair execution of the reference ends with its result buffer at the log-softmax of the logits of the
    launch contents of its seven arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
          = Cert.Gcn.lsmShiftFirst (Cert.Gcn.netLogits (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono
    (fun _ h c => ⟨(h c).1.trans ((ReadP.val_main_v12_eq m c).trans (result_eq _ _ _ _ _ _ _)), (h c).2⟩)
    (ValueP.run (F := Ideal) m ρ)

end Cert.ReferenceIdeal.RefValue

end
-- ==== Proof.Algebra.lean ====
/-
  Two facts about the graph-convolution specification on the extended reals.

  (1) Sums, products, maxima with zero and row-wise additions of real numbers are real numbers, so the logits of the
      network are real whenever its seven inputs are.
  (2) On a row of real logits with at least one column the row maximum `m` is real, every `exp (L p k − m)` is a
      positive real, so `lse = log (∑ exp …)` is real, and then  `a − (lse + m) = (a − m) − lse`  is an identity of real
      numbers. The two ways of writing the log-softmax therefore agree.
-/
import proofs.«177056_g82514911691356_cont_sun_c4_703_2_alg».proof.Proof.Spec
import Idealize.ShloMosaic.PureOps.Ideal.Laws

noncomputable section

namespace Cert.Gcn

open Idealize.ShloMosaic Idealize.ShloMosaic.ValueIdx

/-- A finite sum of real numbers, taken in the extended reals, is the real sum. -/
theorem coe_finset_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two reals, taken in the extended reals, is the real maximum. -/
theorem coe_max_real (a b : ℝ) : max (a : EReal) (b : EReal) = ((max a b : ℝ) : EReal) :=
  (EReal.coe_strictMono.monotone.map_max).symm

/-- The float word of −∞ is the bottom element. -/
theorem ofBits_neg_inf : Ideal.ofBits .f32 0xFF800000#32 = (⊥ : EReal) := by simp [Ideal.ofBits, Ideal.ieee]

/-- The maximum of a nonempty finite family of reals, folded from −∞, is a real. -/
theorem fold_max_real {ι : Type} (s : Finset ι) (f : ι → ℝ) (hs : s.Nonempty) :
    ∃ m : ℝ, s.fold max (⊥ : EReal) (fun k => ((f k : ℝ) : EReal)) = (m : EReal) := by
  classical
  induction s using Finset.induction_on with
  | empty => exact absurd hs Finset.not_nonempty_empty
  | insert a s ha ih =>
    rw [Finset.fold_insert ha]
    rcases s.eq_empty_or_nonempty with rfl | hne
    · exact ⟨f a, by rw [Finset.fold_empty, max_eq_left bot_le]⟩
    · obtain ⟨m, hm⟩ := ih hne
      exact ⟨max (f a) m, by rw [hm, coe_max_real]⟩

variable {N K H : ℕ}

theorem allReal_mm {l : Mat N K} {r : Mat K H} (hl : AllReal l) (hr : AllReal r) : AllReal (mm l r) := by
  intro i
  choose a ha using hl
  choose b hb using hr
  refine ⟨∑ k : Fin K, a (ix2 (i 0) k) * b (ix2 k (i 1)), ?_⟩
  show ∑ k : Fin K, l (ix2 (i 0) k) * r (ix2 k (i 1)) = _
  rw [← coe_finset_sum]
  refine Finset.sum_congr rfl fun k _ => ?_
  rw [ha, hb, EReal.coe_mul]

theorem allReal_relu {a : Mat N H} (ha : AllReal a) : AllReal (relu a) := by
  intro i
  obtain ⟨r, hr⟩ := ha i
  refine ⟨max r 0, ?_⟩
  show max (a i) (Ideal.ofBits .f32 0x00000000#32) = _
  rw [Ideal.ofBits_zero_f32, hr, ← EReal.coe_zero, coe_max_real]

theorem allReal_addRow {a : Mat N H} {b : Vect H} (ha : AllReal a) (hb : AllReal b) : AllReal (addRow a b) := by
  intro i
  obtain ⟨r, hr⟩ := ha i
  obtain ⟨t, ht⟩ := hb (ix1 (i 1))
  refine ⟨r + t, ?_⟩
  show a i + b (ix1 (i 1)) = _
  rw [hr, ht, EReal.coe_add]

/-- The logits of the network are real when its inputs are. -/
theorem allReal_netLogits {x : Mat 10000 128} {adj : Mat 10000 10000} {W1 : Mat 128 128} {W2 : Mat 128 64} {b1 : Vect 64}
    {W3 : Mat 64 40} {b2 : Vect 40} (hx : AllReal x) (hadj : AllReal adj) (hW1 : AllReal W1) (hW2 : AllReal W2)
    (hb1 : AllReal b1) (hW3 : AllReal W3) (hb2 : AllReal b2) : AllReal (netLogits x adj W1 W2 b1 W3 b2) :=
  allReal_addRow
    (allReal_mm hadj (allReal_mm (allReal_addRow (allReal_mm hadj (allReal_mm (allReal_relu (allReal_mm hx hW1)) hW2)) hb1) hW3))
    hb2

/-- On real logits with at least one column the two ways of writing the log-softmax agree. -/
theorem lsm_eq {N H : ℕ} (hH : 0 < H) (L : Mat N H) (hL : AllReal L) : lsmShiftLast L = lsmShiftFirst L := by
  funext i
  choose a ha using hL
  haveI : Nonempty (Fin H) := ⟨⟨0, hH⟩⟩
  -- the row maximum is a real number
  obtain ⟨m, hm⟩ : ∃ m : ℝ, rowMax L (i 0) = (m : EReal) := by
    unfold rowMax
    simp only [ha, ofBits_neg_inf]
    exact fold_max_real _ _ Finset.univ_nonempty
  -- the sum of exponentials is a positive real, so its logarithm is a real number
  have hl : rowLse L (i 0) = ((Real.log (∑ k : Fin H, Real.exp (a (ix2 (i 0) k) - m)) : ℝ) : EReal) := by
    unfold rowLse
    rw [hm]
    simp only [ha, ← EReal.coe_sub, Ideal.exp_coe, coe_finset_sum, Ideal.log_coe]
    rw [if_neg]
    exact not_le.2 (Finset.sum_pos (fun k _ => Real.exp_pos _) Finset.univ_nonempty)
  show L i - (rowLse L (i 0) + rowMax L (i 0)) = (L i - rowMax L (i 0)) - rowLse L (i 0)
  rw [hl, hm, ha, ← EReal.coe_add, ← EReal.coe_sub, ← EReal.coe_sub, ← EReal.coe_sub]
  congr 1
  ring

end Cert.Gcn

end
-- ==== Proof.Finite.lean ====
/-
  The precondition "every entry of every input has absolute value below +∞", read back: every input is an array of
  real numbers.

  The precondition is the conjunction, over the seven inputs, of "all entries `x` satisfy `|x| < +∞`". On the extended
  reals `|x| = max x (−x)`; it equals `⊤` at both `⊥` and `⊤`, so the strict inequality leaves only the real numbers.
-/
import proofs.«177056_g82514911691356_cont_sun_c4_703_2_alg».proof.Proof.Spec
import proofs.«177056_g82514911691356_cont_sun_c4_703_2_alg».proof.Proof.Gen.Pre_finite_inputs
import Idealize.ShloMosaic.Lib.ReduceAll
import Idealize.ShloMosaic.PureOps.Ideal.Laws

noncomputable section

namespace Cert.Gcn

open Idealize.ShloMosaic Idealize.ShloMosaic.ValueIdx

/-- The float word of +∞ is the top element. -/
theorem ofBits_pos_inf : Ideal.ofBits .f32 0x7F800000#32 = (⊤ : EReal) := by simp [Ideal.ofBits, Ideal.ieee]

/-- An extended real whose absolute value is strictly below +∞ is a real number. -/
theorem real_of_abs_lt_top (x : Ideal .f32)
    (h : FloatOps.cmpf .olt (FloatOps.absf x) (Ideal.ofBits .f32 0x7F800000#32) = 1#1) : ∃ r : ℝ, x = (r : EReal) := by
  rw [Ideal.cmpf_def, Ideal.absf_def, ofBits_pos_inf] at h
  induction x using EReal.rec with
  | bot => simp [Ideal.cmp] at h
  | coe r => exact ⟨r, rfl⟩
  | top => simp [Ideal.cmp] at h

/-- The scalar shape has one index. -/
instance subsingleton_scalar_idx : Subsingleton Cert.Pre_finite_inputs.S_.Idx := ⟨fun a b => funext fun d => d.elim0⟩

/-- An array all of whose entries have absolute value below +∞ (the conjunction taken by a reduction over every axis)
    is an array of real numbers. -/
theorem allReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf a) (broadcastInDim s ![] hb (constant Cert.Pre_finite_inputs.S_ .f32 0x7F800000#32)))
          init hr hu j = 1#1) :
    AllReal a :=
  fun i => real_of_abs_lt_top (a i) (Host.reduce_andi_all _ init hr hu j e i)

/-- Under the precondition every one of the seven inputs is an array of real numbers. -/
theorem inputs_real [Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S128x128 .f32) (a3 : FVec Ideal Cert.Pre_finite_inputs.S128x64 .f32)
    (a4 : FVec Ideal Cert.Pre_finite_inputs.S64 .f32) (a5 : FVec Ideal Cert.Pre_finite_inputs.S64x40 .f32)
    (a6 : FVec Ideal Cert.Pre_finite_inputs.S40 .f32)
    (h : Cert.Pre_finite_inputs.fn (F := Ideal) a0 a1 a2 a3 a4 a5 a6 = fun _ => 1#1) :
    AllReal a0 ∧ AllReal a1 ∧ AllReal a2 ∧ AllReal a3 ∧ AllReal a4 ∧ AllReal a5 ∧ AllReal a6 := by
  have e := congrFun h ValueIdx.ix0
  dsimp only [Cert.Pre_finite_inputs.fn, Cert.Pre_finite_inputs.fn_part1] at e
  simp only [andi, IntOp.andi_eq_one] at e
  obtain ⟨⟨⟨⟨⟨⟨h0, h1⟩, h2⟩, h3⟩, h4⟩, h5⟩, h6⟩ := e
  exact ⟨allReal_of_all a0 _ _ _ _ _ h0, allReal_of_all a1 _ _ _ _ _ h1, allReal_of_all a2 _ _ _ _ _ h2,
    allReal_of_all a3 _ _ _ _ _ h3, allReal_of_all a4 _ _ _ _ _ h4, allReal_of_all a5 _ _ _ _ _ h5,
    allReal_of_all a6 _ _ _ _ _ h6⟩

end Cert.Gcn

end
-- ==== Proof.lean ====
/-
  The certificate of a two-layer graph convolution with a row-wise log-softmax: the kernel computes, in three regions,
    h2 = relu (x · W1) · W2,   g = (adj · h2 + b1) · W3,   out = log-softmax of (adj · g + b2) along each row,
  the two aggregations band by band over 25 bands of 400 rows of the adjacency matrix, and writes the log-softmax as
  `L p j − (log (∑ k, exp (L p k − m p)) + m p)` with `m p` the row maximum; the reference computes the same logits by
  whole matrix products and writes `(L p j − m p) − log (∑ k, exp (L p k − m p))`.

  On the extended reals a matrix product is a finite sum whatever its tiling, so both programs form the same logits
  (module Spec: `netLogits`; the kernel's three regions in KRegion0, KRegion1, KRegion2 and KChain, the reference in RefValue).
  The two ways of undoing the shift agree when the logits are real numbers (module Algebra: `lsm_eq`); the logits are
  real because the inputs are (Algebra: `allReal_netLogits`), and the inputs are real because the precondition says every
  entry has absolute value below +∞ (module Finite). At an infinite logit the two forms differ, so the precondition is used.

  The frames of the two kernel programs are the generated ones; the reference's frame is its run with the result dropped;
  the idealization rewrote nothing, so `preserves` is trivial.
-/
import proofs.«177056_g82514911691356_cont_sun_c4_703_2_alg».proof.Defs
import proofs.«177056_g82514911691356_cont_sun_c4_703_2_alg».proof.Proof.Gen.Kernel
import proofs.«177056_g82514911691356_cont_sun_c4_703_2_alg».proof.Proof.Gen.Kernel.Frame
import proofs.«177056_g82514911691356_cont_sun_c4_703_2_alg».proof.Proof.Gen.KernelIdeal
import proofs.«177056_g82514911691356_cont_sun_c4_703_2_alg».proof.Proof.Gen.KernelIdeal.Frame
import proofs.«177056_g82514911691356_cont_sun_c4_703_2_alg».proof.Proof.Gen.ReferenceIdeal
import proofs.«177056_g82514911691356_cont_sun_c4_703_2_alg».proof.Proof.Gen.Pre_finite_inputs
import proofs.«177056_g82514911691356_cont_sun_c4_703_2_alg».proof.Proof.KRun
import proofs.«177056_g82514911691356_cont_sun_c4_703_2_alg».proof.Proof.KChain
import proofs.«177056_g82514911691356_cont_sun_c4_703_2_alg».proof.Proof.RefValue
import proofs.«177056_g82514911691356_cont_sun_c4_703_2_alg».proof.Proof.Algebra
import proofs.«177056_g82514911691356_cont_sun_c4_703_2_alg».proof.Proof.Finite

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

/-- Both programs end with the row-wise log-softmax of the same logits; the kernel undoes the shift by the row maximum
    last, the reference first, and on real logits the two agree. -/
theorem algebraic : Cert.algebraic_KernelIdeal_ReferenceIdeal := by
  intro m ρ m' ρ' hpre hagree
  refine ⟨fun c => Cert.Gcn.lsmShiftLast (Cert.Gcn.netLogits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.Chain.result m ρ c), (h c).2⟩)
      (Cert.KernelIdeal.NamedRun.run m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2.1,
      (hagree c).2.2.2.2.2.2]
    obtain ⟨r0, r1, r2, r3, r4, r5, r6⟩ := Cert.Gcn.inputs_real _ _ _ _ _ _ _ (hpre c)
    exact (Cert.Gcn.lsm_eq (by decide) _ (Cert.Gcn.allReal_netLogits r0 r1 r2 r3 r4 r5 r6)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
